-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000 : Shape := ⟨1, ![250000]⟩
abbrev S2x8000000 : Shape := ⟨2, ![2, 8000000]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S250000 : S_.BroadcastsInDim S250000 (![] : Fin 0 → Fin S250000.rank)
  reducesTo_S250000_S_d0 : S250000.ReducesTo [0] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S250000 .f32) (main_arg1 : IVec S2x8000000 32) (main_arg2 : FVec F S1x1024 .f32) (main_arg3 : FVec F S1024 .f32) (main_arg4 : FVec F S1024x1 .f32) (main_arg5 : FVec F S1 .f32) : IVec S_ 1 :=
  let main_v0 : FVec F S250000 .f32 := Host.absf main_arg0
  let main_cst : FVec F S_ .f32 := constant S_ .f32 0x7F800000#32
  let main_v1 : FVec F S250000 .f32 := broadcastInDim S250000 ![] bcast_S_S250000 main_cst
  let main_v2 : IVec S250000 1 := cmpf .olt main_v0 main_v1
  let main_c : IVec S_ 1 := constantI S_ 1 1#1
  let main_v3 : IVec S_ 1 := (fun x v => Host.reduce IntOp.andi x v reducesTo_S250000_S_d0 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg4
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg5 main_v13 main_v16
-- ==== Kernel.lean ====
abbrev S250000 : Shape := ⟨1, ![250000]⟩
abbrev S2x8000000 : Shape := ⟨2, ![2, 8000000]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S250000x1 : Shape := ⟨2, ![250000, 1]⟩
abbrev S1x1 : Shape := ⟨2, ![1, 1]⟩
abbrev S2000x1 : Shape := ⟨2, ![2000, 1]⟩
abbrev S2000x1024 : Shape := ⟨2, ![2000, 1024]⟩

abbrev nBuf : Space → Nat
  | .hbm => 60
  | .vmem => 8
  | .smem => 0
  | _ => 0

abbrev bufTy : (tb : Table) → Fin (tcTables nBuf tb) → BufTy
  | .hbm, ⟨0, _⟩ => ⟨S250000, .f32⟩
  | .hbm, ⟨1, _⟩ => ⟨S2x8000000, .i32⟩
  | .hbm, ⟨2, _⟩ => ⟨S1x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S1x8000000, .i32⟩
  | .hbm, ⟨7, _⟩ => ⟨S8000000, .i32⟩
  | .hbm, ⟨8, _⟩ => ⟨S1x8000000, .i32⟩
  | .hbm, ⟨9, _⟩ => ⟨S8000000, .i32⟩
  | .hbm, ⟨10, _⟩ => ⟨S_, .f32⟩
  | .hbm, ⟨11, _⟩ => ⟨S8000000, .f32⟩
  | .hbm, ⟨12, _⟩ => ⟨S_, .f32⟩
  | .hbm, ⟨13, _⟩ => ⟨S250000, .f32⟩
  | .hbm, ⟨14, _⟩ => ⟨S8000000x1, .i32⟩
  | .hbm, ⟨15, _⟩ => ⟨S250000, .f32⟩
  | .hbm, ⟨16, _⟩ => ⟨S_, .f32⟩
  | .hbm, ⟨17, _⟩ => ⟨S250000, .f32⟩
  | .hbm, ⟨18, _⟩ => ⟨S250000, .f32⟩
  | .hbm, ⟨19, _⟩ => ⟨S250000, .f32⟩
  | .hbm, ⟨20, _⟩ => ⟨S_, .i32⟩
  | .hbm, ⟨21, _⟩ => ⟨S8000000, .i32⟩
  | .hbm, ⟨22, _⟩ => ⟨S8000000, .i1⟩
  | .hbm, ⟨23, _⟩ => ⟨S_, .i32⟩
  | .hbm, ⟨24, _⟩ => ⟨S8000000, .i32⟩
  | .hbm, ⟨25, _⟩ => ⟨S8000000, .i32⟩
  | .hbm, ⟨26, _⟩ => ⟨S8000000, .i32⟩
  | .hbm, ⟨27, _⟩ => ⟨S8000000x1, .i32⟩
  | .hbm, ⟨28, _⟩ => ⟨S8000000, .f32⟩
  | .hbm, ⟨29, _⟩ => ⟨S_, .i32⟩
  | .hbm, ⟨30, _⟩ => ⟨S8000000, .i32⟩
  | .hbm, ⟨31, _⟩ => ⟨S8000000, .i1⟩
  | .hbm, ⟨32, _⟩ => ⟨S_, .i32⟩
  | .hbm, ⟨33, _⟩ => ⟨S8000000, .i32⟩
  | .hbm, ⟨34, _⟩ => ⟨S8000000, .i32⟩
  | .hbm, ⟨35, _⟩ => ⟨S8000000, .i32⟩
  | .hbm, ⟨36, _⟩ => ⟨S8000000x1, .i32⟩
  | .hbm, ⟨37, _⟩ => ⟨S8000000, .f32⟩
  | .hbm, ⟨38, _⟩ => ⟨S8000000, .f32⟩
  | .hbm, ⟨39, _⟩ => ⟨S_, .i32⟩
  | .hbm, ⟨40, _⟩ => ⟨S8000000, .i32⟩
  | .hbm, ⟨41, _⟩ => ⟨S8000000, .i1⟩
  | .hbm, ⟨42, _⟩ => ⟨S_, .i32⟩
  | .hbm, ⟨43, _⟩ => ⟨S8000000, .i32⟩
  | .hbm, ⟨44, _⟩ => ⟨S8000000, .i32⟩
  | .hbm, ⟨45, _⟩ => ⟨S8000000, .i32⟩
  | .hbm, ⟨46, _⟩ => ⟨S8000000x1, .i32⟩
  | .hbm, ⟨47, _⟩ => ⟨S8000000, .f32⟩
  | .hbm, ⟨48, _⟩ => ⟨S8000000, .f32⟩
  | .hbm, ⟨49, _⟩ => ⟨S_, .f32⟩
  | .hbm, ⟨50, _⟩ => ⟨S250000, .f32⟩
  | .hbm, ⟨51, _⟩ => ⟨S8000000x1, .i32⟩
  | .hbm, ⟨52, _⟩ => ⟨S250000, .f32⟩
  | .hbm, ⟨53, _⟩ => ⟨S250000, .f32⟩
  | .hbm, ⟨54, _⟩ => ⟨S250000, .f32⟩
  | .hbm, ⟨55, _⟩ => ⟨S250000, .f32⟩
  | .hbm, ⟨56, _⟩ => ⟨S250000x1, .f32⟩
  | .hbm, ⟨57, _⟩ => ⟨S1x1024, .f32⟩
  | .hbm, ⟨58, _⟩ => ⟨S1x1, .f32⟩
  | .hbm, ⟨59, _⟩ => ⟨S250000x1, .f32⟩
  | .local _ .vmem, ⟨0, _⟩ => ⟨S2000x1, .f32⟩
  | .local _ .vmem, ⟨1, _⟩ => ⟨S2000x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1x1, .f32⟩
  | .local _ .vmem, ⟨6, _⟩ => ⟨S2000x1, .f32⟩
  | .local _ .vmem, ⟨7, _⟩ => ⟨S2000x1, .f32⟩
  | _, _ => ⟨S250000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S_S250000 : S_.BroadcastsInDim S250000 (![] : Fin 0 → Fin S250000.rank)
  bcast_S8000000_S8000000x1_0 : S8000000.BroadcastsInDim S8000000x1 (![0] : Fin 1 → Fin S8000000x1.rank)
  shapeCasts_S250000_S250000x1 : S250000.ShapeCasts S250000x1
  shapeCasts_S1024_S1x1024 : S1024.ShapeCasts S1x1024
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S2000x1_S2000x1024 : S2000x1.Broadcasts S2000x1024
  broadcasts_S1x1024_S2000x1024 : S1x1024.Broadcasts S2000x1024
  bitsLt_bf16_f32 : FTy.bits .bf16 < FTy.bits .f32
  broadcasts_S1x1_S2000x1 : S1x1.Broadcasts S2000x1
  scatter_S250000_S8000000x1_S8000000_n_0_0_1_wf : ScatterDims.WF S250000 S8000000x1 S8000000 [] [0] [0] 1
  gather_S250000_S8000000x1_S8000000_n_0_n_n_0_1_1_wf : GatherDims.WF S250000 S8000000x1 S8000000 [] [0] [] [0] [] 1 ![1]
  dot_S2000x1024_S1024x1_S2000x1_1_0_0_1_n_n_wf : DotDims.WF S2000x1024 S1024x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S250000x1.size a
  hwx0_0 : ∀ i : grid0.Coords, EltTy.bits .f32 = 32 ∨ (Rect.block (s := S250000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S250000x1.size a
  hwx0_5 : ∀ i : grid0.Coords, EltTy.bits .f32 = 32 ∨ (Rect.block (s := S250000x1) S2000x1.size (cc0_transform_5 i) (hinb0_5 i)).WholeWords (EltTy.packing .f32)

variable [Facts₀]

def scatter_S250000_S8000000x1_S8000000_n_0_0_1 : ScatterDims S250000 S8000000x1 S8000000 where
  updateWindowDims := []
  insertedWindowDims := [0]
  scatterDimsToOperandDims := [0]
  indexVectorDim := 1
  wf := scatter_S250000_S8000000x1_S8000000_n_0_0_1_wf
def gather_S250000_S8000000x1_S8000000_n_0_n_n_0_1_1 : GatherDims S250000 S8000000x1 S8000000 where
  offsetDims := []
  collapsedSliceDims := [0]
  operandBatchingDims := []
  startIndicesBatchingDims := []
  startIndexMap := [0]
  indexVectorDim := 1
  sliceSizes := ![1]
  wf := gather_S250000_S8000000x1_S8000000_n_0_n_n_0_1_1_wf
def dot_S2000x1024_S1024x1_S2000x1_1_0_0_1_n_n : DotDims S2000x1024 S1024x1 S2000x1 where
  lhsContracting := [1]
  rhsContracting := [0]
  lhsNonContracting := [0]
  rhsNonContracting := [1]
  lhsBatch := []
  rhsBatch := []
  wf := dot_S2000x1024_S1024x1_S2000x1_1_0_0_1_n_n_wf

abbrev win0_0 : Pipeline.Window sig grid0 :=
  Pipeline.Window.ofSpec (Memref.whole main_v40) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S250000 : Shape := ⟨1, ![250000]⟩
abbrev S2x8000000 : Shape := ⟨2, ![2, 8000000]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S250000x1 : Shape := ⟨2, ![250000, 1]⟩
abbrev S250000x1024 : Shape := ⟨2, ![250000, 1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S250000, .f32⟩
  | .hbm, ⟨1, _⟩ => ⟨S2x8000000, .i32⟩
  | .hbm, ⟨2, _⟩ => ⟨S1x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S1x8000000, .i32⟩
  | .hbm, ⟨7, _⟩ => ⟨S8000000, .i32⟩
  | .hbm, ⟨8, _⟩ => ⟨S1x8000000, .i32⟩
  | .hbm, ⟨9, _⟩ => ⟨S8000000, .i32⟩
  | .hbm, ⟨10, _⟩ => ⟨S_, .f32⟩
  | .hbm, ⟨11, _⟩ => ⟨S8000000, .f32⟩
  | .hbm, ⟨12, _⟩ => ⟨S_, .f32⟩
  | .hbm, ⟨13, _⟩ => ⟨S250000, .f32⟩
  | .hbm, ⟨14, _⟩ => ⟨S8000000x1, .i32⟩
  | .hbm, ⟨15, _⟩ => ⟨S250000, .f32⟩
  | .hbm, ⟨16, _⟩ => ⟨S_, .f32⟩
  | .hbm, ⟨17, _⟩ => ⟨S250000, .f32⟩
  | .hbm, ⟨18, _⟩ => ⟨S250000, .f32⟩
  | .hbm, ⟨19, _⟩ => ⟨S250000, .f32⟩
  | .hbm, ⟨20, _⟩ => ⟨S_, .i32⟩
  | .hbm, ⟨21, _⟩ => ⟨S8000000, .i32⟩
  | .hbm, ⟨22, _⟩ => ⟨S8000000, .i1⟩
  | .hbm, ⟨23, _⟩ => ⟨S_, .i32⟩
  | .hbm, ⟨24, _⟩ => ⟨S8000000, .i32⟩
  | .hbm, ⟨25, _⟩ => ⟨S8000000, .i32⟩
  | .hbm, ⟨26, _⟩ => ⟨S8000000, .i32⟩
  | .hbm, ⟨27, _⟩ => ⟨S8000000x1, .i32⟩
  | .hbm, ⟨28, _⟩ => ⟨S8000000, .f32⟩
  | .hbm, ⟨29, _⟩ => ⟨S_, .i32⟩
  | .hbm, ⟨30, _⟩ => ⟨S8000000, .i32⟩
  | .hbm, ⟨31, _⟩ => ⟨S8000000, .i1⟩
  | .hbm, ⟨32, _⟩ => ⟨S_, .i32⟩
  | .hbm, ⟨33, _⟩ => ⟨S8000000, .i32⟩
  | .hbm, ⟨34, _⟩ => ⟨S8000000, .i32⟩
  | .hbm, ⟨35, _⟩ => ⟨S8000000, .i32⟩
  | .hbm, ⟨36, _⟩ => ⟨S8000000x1, .i32⟩
  | .hbm, ⟨37, _⟩ => ⟨S8000000, .f32⟩
  | .hbm, ⟨38, _⟩ => ⟨S8000000, .f32⟩
  | .hbm, ⟨39, _⟩ => ⟨S_, .i32⟩
  | .hbm, ⟨40, _⟩ => ⟨S8000000, .i32⟩
  | .hbm, ⟨41, _⟩ => ⟨S8000000, .i1⟩
  | .hbm, ⟨42, _⟩ => ⟨S_, .i32⟩
  | .hbm, ⟨43, _⟩ => ⟨S8000000, .i32⟩
  | .hbm, ⟨44, _⟩ => ⟨S8000000, .i32⟩
  | .hbm, ⟨45, _⟩ => ⟨S8000000, .i32⟩
  | .hbm, ⟨46, _⟩ => ⟨S8000000x1, .i32⟩
  | .hbm, ⟨47, _⟩ => ⟨S8000000, .f32⟩
  | .hbm, ⟨48, _⟩ => ⟨S8000000, .f32⟩
  | .hbm, ⟨49, _⟩ => ⟨S_, .f32⟩
  | .hbm, ⟨50, _⟩ => ⟨S250000, .f32⟩
  | .hbm, ⟨51, _⟩ => ⟨S8000000x1, .i32⟩
  | .hbm, ⟨52, _⟩ => ⟨S250000, .f32⟩
  | .hbm, ⟨53, _⟩ => ⟨S250000, .f32⟩
  | .hbm, ⟨54, _⟩ => ⟨S250000, .f32⟩
  | .hbm, ⟨55, _⟩ => ⟨S250000, .f32⟩
  | .hbm, ⟨56, _⟩ => ⟨S250000x1, .f32⟩
  | .hbm, ⟨57, _⟩ => ⟨S1024, .f32⟩
  | .hbm, ⟨58, _⟩ => ⟨S1x1024, .f32⟩
  | .hbm, ⟨59, _⟩ => ⟨S250000x1024, .f32⟩
  | .hbm, ⟨60, _⟩ => ⟨S250000x1024, .f32⟩
  | .hbm, ⟨61, _⟩ => ⟨S250000x1024, .f32⟩
  | .hbm, ⟨62, _⟩ => ⟨S1x1024, .f32⟩
  | .hbm, ⟨63, _⟩ => ⟨S250000x1024, .f32⟩
  | .hbm, ⟨64, _⟩ => ⟨S250000x1024, .f32⟩
  | .hbm, ⟨65, _⟩ => ⟨S250000x1, .f32⟩
  | .hbm, ⟨66, _⟩ => ⟨S1x1, .f32⟩
  | .hbm, ⟨67, _⟩ => ⟨S250000x1, .f32⟩
  | .hbm, ⟨68, _⟩ => ⟨S250000x1, .f32⟩
  | _, _ => ⟨S250000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S_S250000 : S_.BroadcastsInDim S250000 (![] : Fin 0 → Fin S250000.rank)
  bcast_S8000000_S8000000x1_0 : S8000000.BroadcastsInDim S8000000x1 (![0] : Fin 1 → Fin S8000000x1.rank)
  bcast_S250000_S250000x1_0 : S250000.BroadcastsInDim S250000x1 (![0] : Fin 1 → Fin S250000x1.rank)
  shapeCasts_S1x1024_S1024 : S1x1024.ShapeCasts S1024
  bcast_S1024_S1x1024_1 : S1024.BroadcastsInDim S1x1024 (![1] : Fin 1 → Fin S1x1024.rank)
  bcast_S250000x1_S250000x1024_0_1 : S250000x1.BroadcastsInDim S250000x1024 (![0, 1] : Fin 2 → Fin S250000x1024.rank)
  bcast_S1x1024_S250000x1024_0_1 : S1x1024.BroadcastsInDim S250000x1024 (![0, 1] : Fin 2 → Fin S250000x1024.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  scatter_S250000_S8000000x1_S8000000_n_0_0_1_wf : ScatterDims.WF S250000 S8000000x1 S8000000 [] [0] [0] 1
  gather_S250000_S8000000x1_S8000000_n_0_n_n_0_1_1_wf : GatherDims.WF S250000 S8000000x1 S8000000 [] [0] [] [0] [] 1 ![1]
  dot_S250000x1024_S1024x1_S250000x1_1_0_0_1_n_n_wf : DotDims.WF S250000x1024 S1024x1 S250000x1 [1] [0] [0] [1] [] []

variable [Facts₀]

def scatter_S250000_S8000000x1_S8000000_n_0_0_1 : ScatterDims S250000 S8000000x1 S8000000 where
  updateWindowDims := []
  insertedWindowDims := [0]
  scatterDimsToOperandDims := [0]
  indexVectorDim := 1
  wf := scatter_S250000_S8000000x1_S8000000_n_0_0_1_wf
def gather_S250000_S8000000x1_S8000000_n_0_n_n_0_1_1 : GatherDims S250000 S8000000x1 S8000000 where
  offsetDims := []
  collapsedSliceDims := [0]
  operandBatchingDims := []
  startIndicesBatchingDims := []
  startIndexMap := [0]
  indexVectorDim := 1
  sliceSizes := ![1]
  wf := gather_S250000_S8000000x1_S8000000_n_0_n_n_0_1_1_wf
def dot_S250000x1024_S1024x1_S250000x1_1_0_0_1_n_n : DotDims S250000x1024 S1024x1 S250000x1 where
  lhsContracting := [1]
  rhsContracting := [0]
  lhsNonContracting := [0]
  rhsNonContracting := [1]
  lhsBatch := []
  rhsBatch := []
  wf := dot_S250000x1024_S1024x1_S250000x1_1_0_0_1_n_n_wf

class Facts : Prop extends Facts₀ where

variable [Facts]
-- ==== Proof.HeadSpec.lean ====
/-
  The linear head on an aggregated scalar feature, as one function of its arrays.

  Every node r of the graph carries one aggregated scalar agg r (the normalized sum of its neighbours' states
  plus its own self-loop term). The head lifts that scalar to 1024 hidden features with a weight row w₁ and a
  bias vector b₁, and projects them back to one output with a weight column w₂ and a bias b₂:

      out (r, q) = (∑ k, (agg r * w₁ (0, k) + b₁ k) * w₂ (k, q)) + b₂ 0,        q ranging over the one column.

  Both programs compute exactly this arrangement — the scalar times the weight, plus the bias, THEN the
  contraction — so they agree on all extended reals: nothing is distributed over the sum and nothing cancels, and
  no finiteness of the inputs is needed.
-/
import Idealize.ShloMosaic.PureOps.Ideal
import Idealize.ShloMosaic.Lib.ValueIdx

noncomputable section

namespace GcnHead

open Idealize.ShloMosaic Idealize.ShloMosaic.ValueIdx

/-- The head's output array from the aggregated vector, the first layer's weight row and bias vector, and the
    second layer's weight column and bias. -/
def head (agg : (⟨1, ![250000]⟩ : Shape).Idx → EReal) (w₁ : (⟨2, ![1, 1024]⟩ : Shape).Idx → EReal)
    (b₁ : (⟨1, ![1024]⟩ : Shape).Idx → EReal) (w₂ : (⟨2, ![1024, 1]⟩ : Shape).Idx → EReal)
    (b₂ : (⟨1, ![1]⟩ : Shape).Idx → EReal) : (⟨2, ![250000, 1]⟩ : Shape).Idx → EReal := fun i =>
  (∑ k : Fin 1024, (agg (ix1 (i 0)) * w₁ (ix2 (0 : Fin 1) k) + b₁ (ix1 k)) * w₂ (ix2 k (i 1)))
    + b₂ (ix1 (0 : Fin 1))

end GcnHead

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«152929_j601295422145_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibScalarHeadTile.lean ====
/-
  A two-stage linear head on ONE scalar per row, computed inside a tile and read at an entry.

  A tile holds one scalar per row: an [a, 1] column x. The body repeats the column over h lanes, multiplies it by a
  [1, h] weight row w₁ repeated down the rows, adds a [1, h] bias row b₁ repeated likewise, narrows the [a, h]
  result and an [h, n] weight matrix w₂ to a shorter float format, multiplies the two on the matrix unit into the
  zero accumulator, and adds a [1, n] bias row b₂ repeated down the rows.

  On the extended reals a change of float format is the identity and the matrix unit's contraction into zero is the
  plain sum over the contracted axis, so entry (p, q) of the result is

      (∑ k, (x (p, 0) * w₁ (0, k) + b₁ (0, k)) * w₂ (k, q)) + b₂ (0, q)

  for all extents a, h, n, any narrower format, and any printed record of the plain matrix product. No
  finiteness is used: nothing is distributed or cancelled.

  Two layout facts the statement needs are here as well: an [a, 1] column repeated over b lanes reads, at (r, c),
  the column's entry r; and an [a] vector recast to an [a, 1] column reads, at (r, u), the vector's entry r.
-/
import proofs.«152929_j601295422145_1_alg».proof.Proof.LibDotRecord
import Idealize.ShloMosaic.Lib.ValueLayout

namespace ScalarHead

open Idealize.ShloMosaic Idealize.ShloMosaic.ValueIdx

/-- A column [a, 1] repeated over [a, b] reads, at (r, c), the column's entry r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- An [a] vector recast to an [a, 1] column reads, at (r, u), the vector's entry r, whatever the unit
    coordinate u: row-major position r · 1 + 0 is r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The tile's result at entry (p, q): the hidden row of p — its scalar times the weight row plus the bias row —
    contracted with column q of the second weight matrix, plus the second bias at q. -/
theorem tile_apply {a h n : ℕ} {ψ : FTy}
    (d : DotDims ⟨2, ![a, h]⟩ ⟨2, ![h, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (hx : (⟨2, ![a, 1]⟩ : Shape).Broadcasts ⟨2, ![a, h]⟩) (hr : (⟨2, ![1, h]⟩ : Shape).Broadcasts ⟨2, ![a, h]⟩)
    (hb : (⟨2, ![1, n]⟩ : Shape).Broadcasts ⟨2, ![a, n]⟩) (hψ : ψ.bits < FTy.bits .f32)
    (x : FVec Ideal ⟨2, ![a, 1]⟩ .f32) (w₁ b₁ : FVec Ideal ⟨2, ![1, h]⟩ .f32) (w₂ : FVec Ideal ⟨2, ![h, n]⟩ .f32)
    (b₂ : FVec Ideal ⟨2, ![1, n]⟩ .f32) (prec : Option ContractPrecision) (p : Fin a) (q : Fin n) :
    addf (matmul d prec
            (truncf ψ (addf (mulf (broadcastTo ⟨2, ![a, h]⟩ x hx) (broadcastTo ⟨2, ![a, h]⟩ w₁ hr))
                            (broadcastTo ⟨2, ![a, h]⟩ b₁ hr)) hψ)
            (truncf ψ w₂ hψ) (constant (F := Ideal) ⟨2, ![a, n]⟩ .f32 0x00000000#32))
         (broadcastTo ⟨2, ![a, n]⟩ b₂ hb) (ix2 p q)
      = (∑ k : Fin h, (x (ix2 p (0 : Fin 1)) * w₁ (ix2 (0 : Fin 1) k) + b₁ (ix2 (0 : Fin 1) k)) * w₂ (ix2 k q))
          + b₂ (ix2 (0 : Fin 1) q) := by
  rw [addf_apply]
  refine congrArg₂ (· + ·) ?_ (broadcastTo_1b_ab_apply b₂ hb p q)
  refine (DotRecord.matmul_zero_apply d h1 h2 h3 h4 h5 h6 _ _ prec p q).trans ?_
  refine Finset.sum_congr rfl fun k _ => ?_
  rw [truncf_apply, truncf_apply, addf_apply, mulf_apply, broadcastTo_a1_ab_apply, broadcastTo_1b_ab_apply,
    broadcastTo_1b_ab_apply]

end ScalarHead
-- ==== Proof.HeadHost.lean ====
/-
  What the kernel's host prefix hands to the head.

  Before the tiled call the kernel's program computes, on the host, the same aggregation as the reference, operation
  for operation, and then only re-lays arrays: the aggregated vector [250000] becomes a column [250000, 1], the
  first bias [1024] a row [1, 1024], the second bias [1] a [1, 1] matrix. Read at an entry, each re-laid array is
  the original at the matching coordinate. The aggregated vector is named by the reference's own intermediate
  value, so that the two programs' aggregations are one term and are never opened.
-/
import proofs.«152929_j601295422145_1_alg».proof.Proof.Gen.KernelIdeal.Frame
import proofs.«152929_j601295422145_1_alg».proof.Proof.Gen.ReferenceIdeal.Read
import proofs.«152929_j601295422145_1_alg».proof.Proof.LibScalarHeadTile
import Idealize.ShloMosaic.Lib.StableHlo.Run
import Idealize.ShloMosaic.Lib.ValueLayout

noncomputable section

namespace GcnHead.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated vector of the kernel's arguments: the reference's aggregation applied to the kernel's node
    states and edge list. -/
abbrev agg (c : Dev nD) : (⟨1, ![250000]⟩ : Shape).Idx → EReal :=
  Cert.ReferenceIdeal.Read.val_main_v39 (F := Ideal) (m ((c : Thread nD τ).loc main_arg0)) (m ((c : Thread nD τ).loc main_arg1))

set_option maxRecDepth 8192 in
set_option maxHeartbeats 8000000 in
/-- The column the call's first window stages is the aggregated vector, re-laid: the kernel's host operations up to
    the re-laying are the reference's, one for one. -/
theorem column_eq (c : Dev nD) :
    (V m c main_v40 : S250000x1.Idx → EReal) = shapeCast S250000x1 (agg m c) shapeCasts_S250000_S250000x1 := by
  show StableHlo.after hostOps0 (fun b => m (c, b)) (Proc.devRef .tc main_v40) = _
  after_results_simp
  rfl

set_option maxRecDepth 8192 in
set_option maxHeartbeats 8000000 in
/-- The row the call's third window stages is the first bias vector, re-laid. -/
theorem bias1_eq (c : Dev nD) :
    (V m c main_v41 : S1x1024.Idx → EReal) = shapeCast S1x1024 (m ((c : Thread nD τ).loc main_arg3)) shapeCasts_S1024_S1x1024 := by
  show StableHlo.after hostOps0 (fun b => m (c, b)) (Proc.devRef .tc main_v41) = _
  after_results_simp
  rfl

set_option maxRecDepth 8192 in
set_option maxHeartbeats 8000000 in
/-- The [1, 1] matrix the call's fifth window stages is the second bias, re-laid. -/
theorem bias2_eq (c : Dev nD) :
    (V m c main_v42 : S1x1.Idx → EReal) = shapeCast S1x1 (m ((c : Thread nD τ).loc main_arg5)) shapeCasts_S1_S1x1 := by
  show StableHlo.after hostOps0 (fun b => m (c, b)) (Proc.devRef .tc main_v42) = _
  after_results_simp
  rfl

/-- Entry (r, u) of the staged column is the aggregated scalar of node r. -/
theorem column_apply (c : Dev nD) (r : Fin 250000) (u : Fin 1) :
    V m c main_v40 (ix2 r u) = agg m c (ix1 r) := by
  rw [column_eq]
  exact ScalarHead.shapeCast_a_a1_apply _ _ r u

/-- Entry (u, k) of the staged bias row is the first bias at hidden feature k. -/
theorem bias1_apply (c : Dev nD) (u : Fin 1) (k : Fin 1024) :
    V m c main_v41 (ix2 u k) = m ((c : Thread nD τ).loc main_arg3) (ix1 k) := by
  rw [bias1_eq]
  exact shapeCast_a_1a_apply _ _ u k

/-- The one entry of the staged [1, 1] matrix is the second bias. -/
theorem bias2_apply (c : Dev nD) (u v : Fin 1) :
    V m c main_v42 (ix2 u v) = m ((c : Thread nD τ).loc main_arg5) (ix1 (0 : Fin 1)) := by
  rw [bias2_eq]
  refine (shapeCast_a_1a_apply _ _ u v).trans ?_
  rw [Subsingleton.elim v (0 : Fin 1)]

end GcnHead.Host

end
-- ==== Proof.HeadTile.lean ====
/-
  One tile of the kernel, read at an entry.

  The kernel's body loads a [2000, 1] block of the aggregated column, the [1, 1024] weight and bias rows, the
  [1024, 1] weight column and the [1, 1] bias, and stores ONE value: the column repeated over the hidden lanes
  times the weight row plus the bias row, narrowed, multiplied on the matrix unit by the narrowed weight column
  into zero, plus the bias repeated down the rows. The three shape casts in the body are casts to the same shape.
  So entry (p, q) of the stored tile is the two-stage head of row p's scalar.
-/
import proofs.«152929_j601295422145_1_alg».proof.Proof.Gen.KernelIdeal.Skeleton
import proofs.«152929_j601295422145_1_alg».proof.Proof.LibScalarHeadTile
import Idealize.ShloMosaic.Lib.Pipeline.Value

noncomputable section

namespace GcnHead.Tile

open Cert.KernelIdeal Cert.KernelIdeal.Gen Idealize.ShloMosaic Idealize.ShloMosaic.ValueIdx

/-- The stored tile at (p, q): the hidden row of p contracted with the weight column, plus the bias. -/
theorem payload_apply (x0 : Vec Ideal S2000x1 .f32) (x1 x2 : Vec Ideal S1x1024 .f32) (x3 : Vec Ideal S1024x1 .f32)
    (x4 : Vec Ideal S1x1 .f32) (p : Fin 2000) (q : Fin 1) :
    k0_pay1 x0 x1 x2 x3 x4 (ix2 p q)
      = (∑ k : Fin 1024, (x0 (ix2 p (0 : Fin 1)) * x1 (ix2 (0 : Fin 1) k) + x2 (ix2 (0 : Fin 1) k)) * x3 (ix2 k q))
          + x4 (ix2 (0 : Fin 1) q) := by
  unfold k0_pay1
  simp only [shapeCast_self]
  exact ScalarHead.tile_apply dot_S2000x1024_S1024x1_S2000x1_1_0_0_1_n_n rfl rfl rfl rfl rfl rfl
    broadcasts_S2000x1_S2000x1024 broadcasts_S1x1024_S2000x1024 broadcasts_S1x1_S2000x1 bitsLt_bf16_f32
    x0 x1 x2 x3 x4 none p q

end GcnHead.Tile

end
-- ==== Proof.HeadBlocks.lean ====
/-
  From the kernel's tiles to its whole result.

  The grid has 125 points. At point t the body sees rows 2000·t … 2000·t + 1999 of the aggregated column and
  the whole of the four small parameter arrays, and writes rows 2000·t … 2000·t + 1999 of the result. A tile's
  entry (p, q) is the head of row 2000·t + p (the tile lemma, with each loaded block read where it lies in its
  array), so what point t writes back is block t of ONE whole-array function: the head of the kernel's
  arguments. Row r lies in the block of point r / 2000, so the blocks cover the result, which therefore ends
  holding that function everywhere.

  Where a block is read out of an array, the statement is first made for an arbitrary array: which element of the
  array a block's entry is depends only on the index maps, not on what the array holds.
-/
import proofs.«152929_j601295422145_1_alg».proof.Proof.Gen.KernelIdeal.Value
import proofs.«152929_j601295422145_1_alg».proof.Proof.HeadSpec
import proofs.«152929_j601295422145_1_alg».proof.Proof.HeadHost
import proofs.«152929_j601295422145_1_alg».proof.Proof.HeadTile
import Idealize.ShloMosaic.Lib.Pipeline.Value

noncomputable section

namespace GcnHead.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The head of the kernel's arguments: its aggregated vector and the four parameter arrays as launched. -/
abbrev result (c : Dev nD) : S250000x1.Idx → EReal :=
  GcnHead.head (Host.agg m c) (m ((c : Thread nD τ).loc main_arg2)) (m ((c : Thread nD τ).loc main_arg3))
    (m ((c : Thread nD τ).loc main_arg4)) (m ((c : Thread nD τ).loc main_arg5))

theorem zero_offsets : (![0, 0] : Fin 2 → Nat) = fun _ => 0 := funext fun a => by fin_cases a <;> rfl

/-- The printed index maps over the grid: the column's block moves with the result's, down the rows, one block per
    point; the four parameter arrays are one block each, the same at every point. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A block of ANY array, read where it lies in the array -/

/-- Row p of the first window's block at point t is the array's row at which the result's block has its row p. -/
theorem column_block (X : S250000x1.Idx → EReal) (t : Fin cfg0.N) (p : Fin 2000) (q : Fin 1) :
    ((cfg0.win 0).blk t).view.read (Elt Ideal) X (ix2 p (0 : Fin 1))
      = X (ix2 ((((cfg0.win 5).blk t).view.emb (ix2 p q)) 0) (0 : Fin 1)) := by
  obtain ⟨e00, e01, -, -, -, -, -, -, -, -, e50, e51⟩ := index_facts t
  show X (((cfg0.win 0).blk t).view.emb (ix2 p (0 : Fin 1))) = _
  refine congrArg X (funext fun a => Fin.ext ?_)
  match a with
  | ⟨0, _⟩ => show win0_0.index t (0 : Fin 2) * 2000 + 1 * p.val = win0_5.index t (0 : Fin 2) * 2000 + 1 * p.val; omega
  | ⟨1, _⟩ => show win0_0.index t (1 : Fin 2) * 1 + 1 * 0 = 0; omega

/-- The second window's block is all of its [1, 1024] array. -/
theorem row1_block (X : S1x1024.Idx → EReal) (t : Fin cfg0.N) (k : Fin 1024) :
    ((cfg0.win 1).blk t).view.read (Elt Ideal) X (ix2 (0 : Fin 1) k) = X (ix2 (0 : Fin 1) k) := by
  obtain ⟨-, -, e10, e11, -, -, -, -, -, -, -, -⟩ := index_facts t
  show X (((cfg0.win 1).blk t).view.emb (ix2 (0 : Fin 1) k)) = _
  refine congrArg X (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The third window's block is all of its [1, 1024] array. -/
theorem row2_block (X : S1x1024.Idx → EReal) (t : Fin cfg0.N) (k : Fin 1024) :
    ((cfg0.win 2).blk t).view.read (Elt Ideal) X (ix2 (0 : Fin 1) k) = X (ix2 (0 : Fin 1) k) := by
  obtain ⟨-, -, -, -, e20, e21, -, -, -, -, -, -⟩ := index_facts t
  show X (((cfg0.win 2).blk t).view.emb (ix2 (0 : Fin 1) k)) = _
  refine congrArg X (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- The fourth window's block is all of its [1024, 1] array. -/
theorem matrix_block (X : S1024x1.Idx → EReal) (t : Fin cfg0.N) (k : Fin 1024) (q : Fin 1) :
    ((cfg0.win 3).blk t).view.read (Elt Ideal) X (ix2 k q) = X (ix2 k q) := by
  obtain ⟨-, -, -, -, -, -, e30, e31, -, -, -, -⟩ := index_facts t
  show X (((cfg0.win 3).blk t).view.emb (ix2 k q)) = _
  refine congrArg X (funext fun a => Fin.ext ?_)
  match a with
  | ⟨0, _⟩ => show win0_3.index t (0 : Fin 2) * 1024 + 1 * k.val = k.val; omega
  | ⟨1, _⟩ => show win0_3.index t (1 : Fin 2) * 1 + 1 * q.val = q.val; omega

/-- The fifth window's block is all of its [1, 1] array. -/
theorem unit_block (X : S1x1.Idx → EReal) (t : Fin cfg0.N) (q : Fin 1) :
    ((cfg0.win 4).blk t).view.read (Elt Ideal) X (ix2 (0 : Fin 1) q) = X (ix2 (0 : Fin 1) q) := by
  obtain ⟨-, -, -, -, -, -, -, -, e40, e41, -, -⟩ := index_facts t
  show X (((cfg0.win 4).blk t).view.emb (ix2 (0 : Fin 1) q)) = _
  refine congrArg X (funext fun a => Fin.ext ?_)
  match a with
  | ⟨0, _⟩ => show win0_4.index t (0 : Fin 2) * 1 + 1 * 0 = 0; omega
  | ⟨1, _⟩ => show win0_4.index t (1 : Fin 2) * 1 + 1 * q.val = q.val; omega

/-- A block of the result array read at an entry is the array at the entry's place. -/
theorem result_block (G : S250000x1.Idx → EReal) (t : Fin cfg0.N) (p : Fin 2000) (q : Fin 1) :
    ((cfg0.win 5).blk t).view.read (Elt Ideal) G (ix2 p q) = G (((cfg0.win 5).blk t).view.emb (ix2 p q)) := rfl

/-- The tile the body stores from ANY five loaded blocks, as the write-back moves it (all of it), at (p, q). -/
theorem stored_apply (x0 : Vec Ideal S2000x1 .f32) (x1 x2 : Vec Ideal S1x1024 .f32) (x3 : Vec Ideal S1024x1 .f32)
    (x4 : Vec Ideal S1x1 .f32) (t : Fin cfg0.N) (p : Fin 2000) (q : Fin 1) :
    (cfg0.win 5).cut (grid0.coords t) (k0_pay1 x0 x1 x2 x3 x4) (ix2 p q)
      = (∑ k : Fin 1024, (x0 (ix2 p (0 : Fin 1)) * x1 (ix2 (0 : Fin 1) k) + x2 (ix2 (0 : Fin 1) k)) * x3 (ix2 k q))
          + x4 (ix2 (0 : Fin 1) q) := by
  show k0_pay1 x0 x1 x2 x3 x4 (ix2 p q) = _
  exact Tile.payload_apply x0 x1 x2 x3 x4 p q

/-! ## Each loaded block of the kernel's arrays -/

/-- Row p of the column's block at point t is the aggregated scalar of the node whose row the result's block has
    at p. -/
theorem column_read (c : Dev nD) (t : Fin cfg0.N) (p : Fin 2000) (q : Fin 1) :
    iblk m c 0 t (ix2 p (0 : Fin 1)) = Host.agg m c (ix1 ((((cfg0.win 5).blk t).view.emb (ix2 p q)) 0)) := by
  unfold iblk
  refine (column_block (V m c (Pipeline.arrRef spec0 0)) t p q).trans ?_
  exact Host.column_apply m c _ _

/-- The weight row's block is the weight row. -/
theorem weight1_read (c : Dev nD) (t : Fin cfg0.N) (k : Fin 1024) :
    iblk m c 1 t (ix2 (0 : Fin 1) k) = m ((c : Thread nD τ).loc main_arg2) (ix2 (0 : Fin 1) k) := by
  unfold iblk
  refine (row1_block (V m c (Pipeline.arrRef spec0 1)) t k).trans ?_
  exact congrFun (V_main_arg2 m c) _

/-- The bias row's block is the first bias vector laid as a row. -/
theorem bias1_read (c : Dev nD) (t : Fin cfg0.N) (k : Fin 1024) :
    iblk m c 2 t (ix2 (0 : Fin 1) k) = m ((c : Thread nD τ).loc main_arg3) (ix1 k) := by
  unfold iblk
  refine (row2_block (V m c (Pipeline.arrRef spec0 2)) t k).trans ?_
  exact Host.bias1_apply m c 0 k

/-- The weight column's block is the weight column. -/
theorem weight2_read (c : Dev nD) (t : Fin cfg0.N) (k : Fin 1024) (q : Fin 1) :
    iblk m c 3 t (ix2 k q) = m ((c : Thread nD τ).loc main_arg4) (ix2 k q) := by
  unfold iblk
  refine (matrix_block (V m c (Pipeline.arrRef spec0 3)) t k q).trans ?_
  exact congrFun (V_main_arg4 m c) _

/-- The [1, 1] block is the second bias. -/
theorem bias2_read (c : Dev nD) (t : Fin cfg0.N) (q : Fin 1) :
    iblk m c 4 t (ix2 (0 : Fin 1) q) = m ((c : Thread nD τ).loc main_arg5) (ix1 (0 : Fin 1)) := by
  unfold iblk
  refine (unit_block (V m c (Pipeline.arrRef spec0 4)) t q).trans ?_
  exact Host.bias2_apply m c 0 q

/-! ## What a point writes back, the cover, the whole result -/

/-- What point t writes back is block t of the head of the kernel's arguments. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S2000x1) zero_offsets, View.ld_unit_zero (S := S1x1024) zero_offsets,
    View.ld_unit_zero (S := S1024x1) zero_offsets, View.ld_unit_zero (S := S1x1) zero_offsets]
  obtain ⟨-, -, -, -, -, -, -, -, -, -, e50, e51⟩ := index_facts t
  funext y
  obtain ⟨p, q, rfl⟩ : ∃ (p : Fin 2000) (q : Fin 1), y = ix2 p q := ⟨y 0, y 1, eq_ix2 y⟩
  refine (stored_apply _ _ _ _ _ t p q).trans ?_
  refine Eq.trans ?_ (result_block (result m c) t p q).symm
  have hq : (((cfg0.win 5).blk t).view.emb (ix2 p q)) 1 = q :=
    Fin.ext (by show win0_5.index t (1 : Fin 2) * 1 + 1 * q.val = q.val; omega)
  show _ = GcnHead.head (Host.agg m c) (m ((c : Thread nD τ).loc main_arg2)) (m ((c : Thread nD τ).loc main_arg3))
    (m ((c : Thread nD τ).loc main_arg4)) (m ((c : Thread nD τ).loc main_arg5)) _
  unfold GcnHead.head
  refine congrArg₂ (· + ·) (Finset.sum_congr rfl fun k _ => ?_) (bias2_read m c t q)
  rw [column_read m c t p q, weight1_read m c t k, bias1_read m c t k, weight2_read m c t k q, hq]

/-- An index of the result is in point t's block iff each coordinate is in the block's range on its axis. -/
theorem mem_block (t : Fin cfg0.N) (i : S250000x1.Idx) :
    i ∈ ((cfg0.win 5).blk t).view.set ↔ ∀ a : Fin 2, win0_5.index t a * S2000x1.size a ≤ (i a).val
      ∧ (i a).val < win0_5.index t a * S2000x1.size a + S2000x1.size a := by
  show i ∈ ((View.whole main_v43).slice (win0_5.rect t)).set ↔ _
  rw [View.set_slice_whole, Rect.mem_set_unit]
  exact Iff.rfl

/-- Every index of the result is in the block of the point its row divided by 2000 names. -/
theorem covered (i : S250000x1.Idx) :
    ∃ t : Fin cfg0.N, (cfg0.win 5).flush t = true ∧ i ∈ ((cfg0.win 5).blk t).view.set := by
  have hi0 : (i 0).val < 250000 := (i 0).isLt
  have hi1 : (i 1).val < 1 := (i 1).isLt
  have ht : (i 0).val / 2000 < cfg0.N := by show _ < grid0.N; rw [N_0]; omega
  obtain ⟨-, -, -, -, -, -, -, -, -, -, e50, e51⟩ := index_facts ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    have e : win0_5.index ⟨(i 0).val / 2000, ht⟩ (0 : Fin 2) = (i 0).val / 2000 := e50
    omega
  | ⟨1, _⟩ =>
    show win0_5.index ⟨(i 0).val / 2000, ht⟩ (1 : Fin 2) * 1 ≤ (i 1).val
      ∧ (i 1).val < win0_5.index ⟨(i 0).val / 2000, ht⟩ (1 : Fin 2) * 1 + 1
    omega

/-- The result array after the run is the head of the kernel's arguments. -/
theorem final (c : Dev nD) : (dats m 0 c).arrAt 5 cfg0.N = result m c :=
  (dats m 0 c).arrAt_eq_of_cover 5 (result m c) (fun t _ => flushed_eq m c t) covered

/-- The kernel's run: it terminates without a fault, its result array holds the head of its arguments, and the
    arguments are unchanged. -/
theorem run : θ_run defs (onTc (τ := τ) (main (F := Ideal))) ⟨m, fun _ => 0, ρ⟩ fun r => ∀ c : Dev nD,
      r.2.mem ((c : Thread nD τ).loc main_v43) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end GcnHead.Kernel

end
-- ==== Proof.HeadReference.lean ====
/-
  The reference computes the head.

  After the shared aggregation the reference repeats the aggregated vector over the 1024 hidden lanes, the
  weight row and the bias vector down the 250000 rows, multiplies, adds, contracts the hidden axis with the
  weight column and adds the bias repeated down the rows. Read at an entry, every repetition reads its operand
  at the matching coordinate and the contraction is the sum over the hidden axis, which is the head's formula
  with the aggregated vector left as the reference's own intermediate value.
-/
import proofs.«152929_j601295422145_1_alg».proof.Proof.Gen.ReferenceIdeal.Read
import proofs.«152929_j601295422145_1_alg».proof.Proof.HeadSpec

noncomputable section

namespace GcnHead.Reference

open Cert.ReferenceIdeal Cert.ReferenceIdeal.Gen Cert.ReferenceIdeal.Read Idealize.ShloMosaic
open Idealize.ShloMosaic.ValueIdx

/-- The aggregated vector repeated over the hidden lanes reads, at (r, k), the vector's entry r. -/
theorem idx_agg (i : S250000x1.Idx) (k : Fin 1024) :
    idx_main_v40 (idx_main_v43 (lidx_main_v49 i k)) = ix1 (i 0) :=
  funext fun a => match a with | ⟨0, _⟩ => rfl

/-- The weight row, flattened and re-laid as a row, repeated down the rows reads, at (r, k), the row's entry k. -/
theorem idx_w1 (i : S250000x1.Idx) (k : Fin 1024) :
    idx_main_v41 (idx_main_v42 (idx_main_v44 (lidx_main_v49 i k))) = ix2 (0 : Fin 1) k :=
  funext fun a => match a with
    | ⟨0, _⟩ => rfl
    | ⟨1, _⟩ => Fin.ext (Nat.mod_eq_of_lt k.isLt)

/-- The bias vector laid as a row and repeated down the rows reads, at (r, k), the vector's entry k. -/
theorem idx_b1 (i : S250000x1.Idx) (k : Fin 1024) :
    idx_main_v46 (idx_main_v47 (lidx_main_v49 i k)) = ix1 k :=
  funext fun a => match a with | ⟨0, _⟩ => rfl

/-- The weight column's index at output entry i and hidden coordinate k is (k, i's column). -/
theorem idx_w2 (i : S250000x1.Idx) (k : Fin 1024) : ridx_main_v49 i k = ix2 k (i 1) :=
  funext fun a => match a with
    | ⟨0, _⟩ => rfl
    | ⟨1, _⟩ => rfl

/-- The output bias repeated over the whole result reads its one entry. -/
theorem idx_b2 (i : S250000x1.Idx) : idx_main_v50 (idx_main_v51 i) = ix1 (0 : Fin 1) :=
  funext fun a => match a with | ⟨0, _⟩ => rfl

/-- The reference's result is the head of its own aggregated vector and the four parameter arrays. -/
theorem result_eq (x0 : (⟨S250000, .f32⟩ : BufTy).Contents (Elt Ideal)) (x1 : (⟨S2x8000000, .i32⟩ : BufTy).Contents (Elt Ideal))
    (x2 : (⟨S1x1024, .f32⟩ : BufTy).Contents (Elt Ideal)) (x3 : (⟨S1024, .f32⟩ : BufTy).Contents (Elt Ideal))
    (x4 : (⟨S1024x1, .f32⟩ : BufTy).Contents (Elt Ideal)) (x5 : (⟨S1, .f32⟩ : BufTy).Contents (Elt Ideal)) :
    val_main_v52 (F := Ideal) x0 x1 x2 x3 x4 x5 = GcnHead.head (val_main_v39 (F := Ideal) x0 x1) x2 x3 x4 x5 := by
  funext i
  rw [val_main_v52_apply, val_main_v49_apply, val_main_v51_apply, val_main_v50_apply, idx_b2]
  unfold GcnHead.head
  rw [Ideal.addf_def]
  refine congrArg₂ (· + ·) (Finset.sum_congr rfl fun k _ => ?_) rfl
  rw [val_main_v48_apply, val_main_v45_apply, val_main_v43_apply, val_main_v40_apply, val_main_v44_apply,
    val_main_v42_apply, val_main_v41_apply, val_main_v47_apply, val_main_v46_apply,
    idx_agg, idx_w1, idx_b1, idx_w2, Ideal.addf_def, Ideal.mulf_def]
  rfl

end GcnHead.Reference

end
-- ==== Proof.lean ====
/-
  A graph-convolution layer on a scalar node feature followed by a linear head: the tiled kernel against the
  plain reference, on the extended reals.

  Both programs first aggregate, on the host and by the same operations in the same order: the degree of every
  node by a scatter-add of ones over the edge targets, plus one for the self-loop; its inverse square root; per
  edge the product of the two endpoint factors and the source's state, scatter-added over the targets; plus the
  self-loop term. That gives one scalar agg r per node r, the same term in both programs.

  The head is out (r, 0) = (∑ k, (agg r · w₁ (0, k) + b₁ k) · w₂ (k, 0)) + b₂ 0 over 1024 hidden features.
  The reference forms the whole [250000, 1024] hidden array on the host and contracts it. The kernel walks the
  rows in 125 tiles of 2000: each tile repeats its 2000 scalars over the hidden lanes, multiplies by the weight
  row, adds the bias row, narrows to a shorter float format, multiplies by the narrowed weight column on the
  matrix unit into zero, and adds the bias. On the extended reals a change of format is the identity and the
  matrix unit's contraction is the plain sum, so a tile's entry (p, q) is the head of row 2000·t + p; the tiles
  cover the result; and the reference's broadcasts and dot product read, entry by entry, as the same sum. The
  two arrangements are the SAME arrangement — nothing is distributed over the sum, nothing cancels — so the
  equality holds for all extended-real inputs and the finiteness of the inputs is never used.

  The idealized kernel is the kernel's own text read on the extended reals: no rewrite was applied, and that
  claim is trivial. Each program terminates without a fault and leaves its arguments unchanged.
-/
import proofs.«152929_j601295422145_1_alg».proof.Defs
import proofs.«152929_j601295422145_1_alg».proof.Proof.Gen.Kernel
import proofs.«152929_j601295422145_1_alg».proof.Proof.Gen.Kernel.Skeleton
import proofs.«152929_j601295422145_1_alg».proof.Proof.Gen.Kernel.Launch
import proofs.«152929_j601295422145_1_alg».proof.Proof.Gen.Kernel.Points
import proofs.«152929_j601295422145_1_alg».proof.Proof.Gen.Kernel.Frame
import proofs.«152929_j601295422145_1_alg».proof.Proof.Gen.KernelIdeal
import proofs.«152929_j601295422145_1_alg».proof.Proof.Gen.KernelIdeal.Skeleton
import proofs.«152929_j601295422145_1_alg».proof.Proof.Gen.KernelIdeal.Launch
import proofs.«152929_j601295422145_1_alg».proof.Proof.Gen.KernelIdeal.Points
import proofs.«152929_j601295422145_1_alg».proof.Proof.Gen.KernelIdeal.Frame
import proofs.«152929_j601295422145_1_alg».proof.Proof.Gen.ReferenceIdeal
import proofs.«152929_j601295422145_1_alg».proof.Proof.Gen.KernelIdeal.Value
import proofs.«152929_j601295422145_1_alg».proof.Proof.Gen.ReferenceIdeal.Run
import proofs.«152929_j601295422145_1_alg».proof.Proof.Gen.ReferenceIdeal.Read
import proofs.«152929_j601295422145_1_alg».proof.Proof.Gen.Pre_finite_inputs
import proofs.«152929_j601295422145_1_alg».proof.Proof.HeadBlocks
import proofs.«152929_j601295422145_1_alg».proof.Proof.HeadReference
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on the arguments both programs end with the head of the aggregated vector: the
    kernel tile by tile, the reference entry by entry; the two aggregated vectors are one term of arguments
    that agree. -/
theorem algebraic : Cert.algebraic_KernelIdeal_ReferenceIdeal := by
  intro m ρ m' ρ' _ hagree
  refine ⟨fun c => GcnHead.Kernel.result m c, GcnHead.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, GcnHead.Reference.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
